-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S16384x1024, .f32⟩
  | .hbm, ⟨6, _⟩ => ⟨S16384x1024, .f32⟩
  | .hbm, ⟨7, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S1024x1024, .bf16⟩
  | .local _ .vmem, ⟨7, _⟩ => ⟨S2048x1024, .f32⟩
  | .local _ .vmem, ⟨8, _⟩ => ⟨S2048x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S4x4096x1024_S16384x1024 : S4x4096x1024.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S1024x1024_S1024x1024 : S1024x1024.ShapeCasts S1024x1024
  shapeCasts_S16384x1024_S4x4096x1024 : S16384x1024.ShapeCasts S4x4096x1024
  dot_S1024x1024_S1024x1024_S1024x1024_0_0_1_1_n_n_wf : DotDims.WF S1024x1024 S1024x1024 S1024x1024 [0] [0] [1] [1] [] []
  dot_S1024x1024_S1024x1024_S1024x1024_1_1_0_0_n_n_wf : DotDims.WF S1024x1024 S1024x1024 S1024x1024 [1] [1] [0] [0] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x1024.size a
  hwx1_0 : ∀ i : grid1.Coords, EltTy.bits .f32 = 32 ∨ (Rect.block (s := S16384x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S16384x1024.size a
  hwx1_2 : ∀ i : grid1.Coords, EltTy.bits .f32 = 32 ∨ (Rect.block (s := S16384x1024) S2048x1024.size (cc1_transform_2 i) (hinb1_2 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg2) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S4x4096x1024_S1024x1024_S4x4096x1024_2_1_01_0_n_n_wf : DotDims.WF S4x4096x1024 S1024x1024 S4x4096x1024 [2] [1] [0, 1] [0] [] []
  dot_S4x4096x1024_S1024x1024_S4x4096x1024_2_0_01_1_n_n_wf : DotDims.WF S4x4096x1024 S1024x1024 S4x4096x1024 [2] [0] [0, 1] [1] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.KernelRun.lean ====
/-
  The kernel program's run with its result named.

  The program is two kernel launches among two reshapes.  Its run is cut into four segments: the first
  launch (the weight product), the reshape of the input to a matrix of rows, the second launch (the rows
  times the weight), and the reshape of the result back to the input's shape.  The buffer contents at the
  boundary after each segment are a fold from the launch memory (the boundaries' valuations of the frame
  module); every execution ends with each unscoped buffer at the last boundary's contents.  Read at the
  result buffer this names the program's result; read at the four argument buffers it gives them back
  unchanged.
-/
import proofs.«105965_j26173530701943_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the
    last boundary's contents and the four arguments end as launched. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Whole

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibLinTile.lean ====
/-
  A tile of a linear layer and its column statistics, read entry by entry over the extended reals.

  * A matrix product whose two operands are both contracted along their LAST axis (dimension numbers
    `[1] × [1]`, no batch axes, free axes `[0]` and `[0]`): an `M × K` by `N × K` product accumulated into the
    zero matrix is, at entry `(a, b)`, `Σ_k l (a, k) · r (b, k)` — the left operand times the transpose of the
    right one. The dimension-number record is a variable with its six lists given by hypotheses.
  * A column `[m, 1]` broadcast along the second axis reads `(r, 0)` at `(r, c)`.
  * The sum of an `[m, n]` matrix along its first axis is, at column `c`, `Σ_p v (p, c)`; recast as a row
    `[1, n]` and added to a row it gives the running column sums.
  * The tile itself: with `agg, h : [m, K]`, a column `d : [m, 1]`, weights `wl, wr : [n, K]` and a bias row
    `b : [1, n]`, the value `((agg ∘ d) · wlᵀ + h · wrᵀ) + b` (operands passed through a change of format, which
    is the identity on the extended reals) is, at `(p, q)`,
    `(Σ_k (agg (p, k) · d (p, 0)) · wl (q, k) + Σ_k h (p, k) · wr (q, k)) + b (0, q)`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibLinTile

open Idealize.ShloMosaic Idealize.ShloMosaic.ValueIdx

/-! ## The product with both operands contracted on their last axis -/

section Matmul

variable {M K N : Nat} (D : DotDims ⟨2, ![M, K]⟩ ⟨2, ![N, K]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `0`, the right operand's row is the result's column. -/
theorem rhs_row (hln : D.lhsNonContracting = [0]) (hrn : D.rhsNonContracting = [0]) (hlb : D.lhsBatch = [])
    (hrb : D.rhsBatch = []) (j : (⟨2, ![M, N]⟩ : Shape).Idx) (q : D.contr.Idx) : (D.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- An `M × K` by `N × K` product, both contracted on the last axis, into the zero matrix, at entry `(a, b)`:
    `Σ_k l (a, k) · r (b, k)`. -/
theorem matmul_zero_apply {φ₁ φ₂ : FTy}
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (a : Fin M) (b : Fin N) :
    FloatOps.matmul D prec l r (constant (F := Ideal) ⟨2, ![M, N]⟩ .f32 0x00000000#32) (ix2 a b)
      = ∑ k : Fin K, l (ix2 a k) * r (ix2 b k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 b k :=
    funext fun c => Fin.ext (by
      match c with
      | ⟨0, _⟩ => exact rhs_row D hln hrn hlb hrb _ _
      | ⟨1, _⟩ => exact (D.rhsIdx_val_of_single hrc _ _).trans hk)
  rw [el, er]

end Matmul

/-! ## A column broadcast along the rows' entries -/

/-- A column `[m, 1]` broadcast to `[m, n]`, read at `(r, c)`, is the column at `(r, 0)`. -/
theorem bcast_col {α : Type} {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r (0 : Fin 1)) :=
  broadcastTo_apply v h (ix2 r c) (ix2 r (0 : Fin 1)) (fun a => match a with
    | ⟨0, _⟩ => by show r.val = (if m = 1 then 0 else r.val); rw [if_neg hm]
    | ⟨1, _⟩ => by show 0 = (if (1 : ℕ) = 1 then 0 else c.val); rw [if_pos rfl])

/-! ## Sums down the columns -/

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (lift_col h c k)

/-- A row plus the column sums of a matrix kept as a row: at `(0, c)` the row's entry plus `Σ_p v (p, c)`. -/
theorem addColSum_apply {m n : ℕ} (row : FVec Ideal (⟨2, ![1, n]⟩ : Shape) .f32) (v : FVec Ideal (⟨2, ![m, n]⟩ : Shape) .f32)
    (acc : BitVec 32) (h : (⟨2, ![m, n]⟩ : Shape).Reduces [0] (⟨1, ![n]⟩ : Shape)) (hφ : FKind.Formats .f32)
    (hacc : acc = FKind.add.neutral .f32 hφ) (hc : (⟨1, ![n]⟩ : Shape).ShapeCasts ⟨2, ![1, n]⟩) (c : Fin n) :
    addf row (shapeCast ⟨2, ![1, n]⟩ (multiReduction .add [0] (⟨1, ![n]⟩ : Shape) v acc h hφ hacc) hc) (ix2 (0 : Fin 1) c)
      = row (ix2 (0 : Fin 1) c) + ∑ p : Fin m, v (ix2 p c) :=
  (addf_apply _ _ _).trans (congrArg (row (ix2 (0 : Fin 1) c) + ·)
    ((shapeCast_a_1a_apply _ hc 0 c).trans (colSum_apply v acc h hφ hacc c)))

/-! ## The tile -/

/-- The tile's value at `(p, q)`. -/
theorem tile_apply {m K n : ℕ} (D : DotDims ⟨2, ![m, K]⟩ ⟨2, ![n, K]⟩ ⟨2, ![m, n]⟩)
    (hlc : D.lhsContracting = [1]) (hrc : D.rhsContracting = [1]) (hln : D.lhsNonContracting = [0])
    (hrn : D.rhsNonContracting = [0]) (hlb : D.lhsBatch = []) (hrb : D.rhsBatch = [])
    (hm : m ≠ 1)
    (agg h : FVec Ideal ⟨2, ![m, K]⟩ .f32) (d : FVec Ideal ⟨2, ![m, 1]⟩ .f32) (wl wr : FVec Ideal ⟨2, ![n, K]⟩ .f32)
    (b : FVec Ideal ⟨2, ![1, n]⟩ .f32)
    (hbc : (⟨2, ![m, 1]⟩ : Shape).Broadcasts ⟨2, ![m, K]⟩) (hbr : (⟨2, ![1, n]⟩ : Shape).Broadcasts ⟨2, ![m, n]⟩)
    (hlt : FTy.bits .bf16 < FTy.bits .f32) (p : Fin m) (q : Fin n) :
    addf (addf
        (matmul D none (truncf .bf16 (mulf agg (broadcastTo ⟨2, ![m, K]⟩ d hbc)) hlt) (truncf .bf16 wl hlt)
          (constant (F := Ideal) ⟨2, ![m, n]⟩ .f32 0x00000000#32))
        (matmul D none (truncf .bf16 h hlt) (truncf .bf16 wr hlt) (constant (F := Ideal) ⟨2, ![m, n]⟩ .f32 0x00000000#32)))
      (broadcastTo ⟨2, ![m, n]⟩ b hbr) (ix2 p q)
      = ((∑ k : Fin K, (agg (ix2 p k) * d (ix2 p (0 : Fin 1))) * wl (ix2 q k)) + ∑ k : Fin K, h (ix2 p k) * wr (ix2 q k))
          + b (ix2 (0 : Fin 1) q) := by
  refine (addf_apply _ _ _).trans ?_
  refine congrArg₂ (· + ·) ((addf_apply _ _ _).trans (congrArg₂ (· + ·) ?_ ?_)) (broadcastTo_1b_ab_apply b hbr p q)
  · refine (matmul_zero_apply D hlc hrc hln hrn hlb hrb none _ _ p q).trans ?_
    refine Finset.sum_congr rfl fun k _ => ?_
    show (agg (ix2 p k) * broadcastTo ⟨2, ![m, K]⟩ d hbc (ix2 p k)) * wl (ix2 q k) = _
    rw [bcast_col hm d hbc p k]
  · exact matmul_zero_apply D hlc hrc hln hrn hlb hrb none _ _ p q

end Cert.LibLinTile

end
-- ==== Proof.LibFirstAxisMatmul.lean ====
/-
  A matrix product contracted along the FIRST axis of both operands, read at an entry, over the extended reals.

  For dimension numbers that contract the two operands' first axes and have no batch axes (`[0] × [0]`, free
  axes `[1]` and `[1]`), a `K × M` by `K × N` product accumulated into the zero matrix is, at entry `(a, b)`,
  the sum over `k` of `l (k, a) · r (k, b)`: the transpose of the left operand times the right one.  The
  dimension-number record is a variable with its six lists given by hypotheses, so the statement applies to
  any printed record of this form, whatever its name and extents.
-/
import Idealize.ShloMosaic.PureOps.Ideal.Laws
import Idealize.ShloMosaic.Lib.ValueIdx

noncomputable section

namespace Cert.LibFirstAxisMatmul

open Idealize.ShloMosaic Idealize.ShloMosaic.ValueIdx

variable {M K N : Nat} (D : DotDims ⟨2, ![K, M]⟩ ⟨2, ![K, N]⟩ ⟨2, ![M, N]⟩)

/-- With no batch axes and left free axis `1`, the left operand's column is the result's row. -/
theorem lhs_col (hln : D.lhsNonContracting = [1]) (hlb : D.lhsBatch = [])
    (j : (⟨2, ![M, N]⟩ : Shape).Idx) (q : D.contr.Idx) : (D.lhsIdx j q 1).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [1]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [0]) : D.contr.rank = 1 := by rw [D.rank_contr, hlc]; rfl

theorem contr_size (hlc : D.lhsContracting = [0]) :
    D.contr.size ⟨0, by rw [contr_rank D hlc]; exact Nat.one_pos⟩ = K := by
  rw [D.size_contr 0 (by rw [hlc]; exact Nat.one_pos)]
  simp [hlc]

/-- A `K × M` by `K × N` product, both contracted on the first axis, into the zero matrix, at entry `(a, b)`:
    `Σ_k l (k, a) · r (k, b)`. -/
theorem matmul_zero_apply {φ₁ φ₂ : FTy}
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (l : FVec Ideal ⟨2, ![K, M]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 k a) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 k a :=
    funext fun c => Fin.ext (by
      match c with
      | ⟨0, _⟩ => exact (D.lhsIdx_val_of_single hlc _ _).trans hk
      | ⟨1, _⟩ => exact lhs_col D hln hlb _ _)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibFirstAxisMatmul

end
-- ==== Proof.KernelEntries.lean ====
/-
  The two kernel bodies' stored values, entry by entry, over the extended reals.

  The first body stores, from three loaded `1024 × 1024` matrices `v0`, `v1`, `v2`, the product
  `(v0ᵀ · v1) · v2ᵀ`: at `(i, o)` the sum over `k` of `(Σ_j v0 (j, i) · v1 (j, k)) · v2 (o, k)`.  The second body
  stores, from a loaded `2048 × 1024` block of rows `x0` and a loaded `1024 × 1024` matrix `x1`, the plain
  product `x0 · x1`: at `(p, q)` the sum over `k` of `x0 (p, k) · x1 (k, q)`.  The changes of float format on
  the way are the identity here, and so are the casts of a shape to itself.
-/
import proofs.«105965_j26173530701943_2_alg».proof.Proof.Gen.KernelIdeal.Skeleton
import proofs.«105965_j26173530701943_2_alg».proof.Proof.LibPlainMatmul
import proofs.«105965_j26173530701943_2_alg».proof.Proof.LibLinTile
import proofs.«105965_j26173530701943_2_alg».proof.Proof.LibFirstAxisMatmul
import Idealize.ShloMosaic.Lib.Pipeline.Value
import Idealize.ShloMosaic.Lib.ValueIdx

noncomputable section

namespace Cert.KernelIdeal.Entries

open Idealize.ShloMosaic Idealize.ShloMosaic.ValueIdx Cert.KernelIdeal Cert.KernelIdeal.Gen

/-- The first body's stored value at `(i, o)`. -/
theorem weight_payload (v0 v1 v2 : Vec Ideal S1024x1024 .f32) (i o : Fin 1024) :
    k0_pay1 (F := Ideal) v0 v1 v2 (ix2 i o)
      = ∑ k : Fin 1024, (∑ j : Fin 1024, v0 (ix2 j i) * v1 (ix2 j k)) * v2 (ix2 o k) := by
  unfold k0_pay1
  refine (truncf_apply (ψ := .bf16) (φ := .f32) _ _ (ix2 i o)).trans ?_
  refine (Cert.LibLinTile.matmul_zero_apply (φ₁ := .f32) (φ₂ := .f32)
    dot_S1024x1024_S1024x1024_S1024x1024_1_1_0_0_n_n rfl rfl rfl rfl rfl rfl none _ v2 i o).trans ?_
  refine Finset.sum_congr rfl fun k _ => congrArg (· * v2 (ix2 o k)) ?_
  exact Cert.LibFirstAxisMatmul.matmul_zero_apply (φ₁ := .f32) (φ₂ := .f32)
    dot_S1024x1024_S1024x1024_S1024x1024_0_0_1_1_n_n rfl rfl rfl rfl rfl rfl none v0 v1 i k

/-- The second body's stored value at `(p, q)`. -/
theorem rows_payload (x0 : Vec Ideal S2048x1024 .f32) (x1 : Vec Ideal S1024x1024 .bf16) (p : Fin 2048) (q : Fin 1024) :
    k1_pay1 (F := Ideal) x0 x1 (ix2 p q) = ∑ k : Fin 1024, x0 (ix2 p k) * x1 (ix2 k q) := by
  unfold k1_pay1
  refine (Cert.LibPlainMatmul.matmul_zero_apply (φ₁ := .bf16) (φ₂ := .bf16)
    dot_S2048x1024_S1024x1024_S2048x1024_1_0_0_1_n_n rfl rfl rfl rfl rfl rfl none _ _ p q).trans ?_
  refine Finset.sum_congr rfl fun k _ => ?_
  exact congrArg₂ (· * ·) (congrFun (shapeCast_self x0 _) (ix2 p k)) (congrFun (shapeCast_self x1 _) (ix2 k q))

end Cert.KernelIdeal.Entries

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.ChainLaw.lean ====
/-
  Associativity of a chain of three matrix products, entry by entry.

  For a row `x` and matrices `B`, `A` and a row `C` of a third matrix, the entry of `x · (Bᵀ · A · Cᵀ)` and the
  entry of `((x · Bᵀ) · A) · Cᵀ` are both the triple sum of `x i · B j i · A j k · C k` over `i`, `j`, `k`.
  Over the real numbers the two groupings are equal by distributing the products over the sums and
  exchanging the order of summation.  Over the extended reals the same holds when every entry is a real
  number: every partial sum and product is then a real number, so no infinity is met and the identity is
  the real one read through the coercion.  (Without that hypothesis distributivity fails at infinities.)
-/
import proofs.«105965_j26173530701943_2_alg».proof.Proof.LibERealSums

namespace Cert.ChainLaw

open Finset Cert.LibERealSums

variable {ι κ μ : Type*} [Fintype ι] [Fintype κ] [Fintype μ]

/-- Over the reals: `Σ_i x i · (Σ_k (Σ_j B j i · A j k) · C k) = Σ_k (Σ_j (Σ_i x i · B j i) · A j k) · C k`. -/
theorem chain_real (x : ι → ℝ) (B : κ → ι → ℝ) (A : κ → μ → ℝ) (C : μ → ℝ) :
    ∑ i, x i * ∑ k, (∑ j, B j i * A j k) * C k = ∑ k, (∑ j, (∑ i, x i * B j i) * A j k) * C k := by
  simp only [Finset.mul_sum, Finset.sum_mul]
  rw [Finset.sum_comm]
  refine Finset.sum_congr rfl fun k _ => ?_
  rw [Finset.sum_comm]
  refine Finset.sum_congr rfl fun j _ => Finset.sum_congr rfl fun i _ => ?_
  ring

/-- Over the extended reals, for entries that are all real numbers. -/
theorem chain_ereal (x : ι → EReal) (B : κ → ι → EReal) (A : κ → μ → EReal) (C : μ → EReal)
    (hx : ∀ i, ∃ r : ℝ, x i = (r : EReal)) (hB : ∀ j i, ∃ r : ℝ, B j i = (r : EReal))
    (hA : ∀ j k, ∃ r : ℝ, A j k = (r : EReal)) (hC : ∀ k, ∃ r : ℝ, C k = (r : EReal)) :
    ∑ i, x i * ∑ k, (∑ j, B j i * A j k) * C k = ∑ k, (∑ j, (∑ i, x i * B j i) * A j k) * C k := by
  choose xr hxr using hx
  choose Br hBr using hB
  choose Ar hAr using hA
  choose Cr hCr using hC
  have lhs : ∑ i, x i * ∑ k, (∑ j, B j i * A j k) * C k
      = ((∑ i, xr i * ∑ k, (∑ j, Br j i * Ar j k) * Cr k : ℝ) : EReal) := by
    refine sum_eq_coe _ _ _ fun i _ => ?_
    rw [hxr i, EReal.coe_mul]
    refine congrArg _ (sum_eq_coe _ _ _ fun k _ => ?_)
    rw [hCr k, EReal.coe_mul]
    refine congrArg (· * _) (sum_eq_coe _ _ _ fun j _ => ?_)
    rw [hBr j i, hAr j k, EReal.coe_mul]
  have rhs : ∑ k, (∑ j, (∑ i, x i * B j i) * A j k) * C k
      = ((∑ k, (∑ j, (∑ i, xr i * Br j i) * Ar j k) * Cr k : ℝ) : EReal) := by
    refine sum_eq_coe _ _ _ fun k _ => ?_
    rw [hCr k, EReal.coe_mul]
    refine congrArg (· * _) (sum_eq_coe _ _ _ fun j _ => ?_)
    rw [hAr j k, EReal.coe_mul]
    refine congrArg (· * _) (sum_eq_coe _ _ _ fun i _ => ?_)
    rw [hxr i, hBr j i, EReal.coe_mul]
  rw [lhs, rhs, chain_real]

end Cert.ChainLaw
-- ==== Proof.ChainSpec.lean ====
/-
  What both programs compute, entry by entry.

  With `x : [4, 4096, 1024]` and square matrices `A`, `B`, `C : [1024, 1024]`, the result at `(b, s, o)` is the
  `(s, o)` entry of `x[b] · Bᵀ · A · Cᵀ`.  Two groupings of that product are named here:

  * `chained`: the products taken from the left, `((x[b] · Bᵀ) · A) · Cᵀ` — three sums nested from the inside out over
    the columns of `B`, the rows of `A` and the columns of `C`;
  * `fused`: the row of `x` times the one weight matrix `W = Bᵀ · A · Cᵀ` (`weight`), which does not depend on
    `b` or `s`.

  The two are equal when every entry is a real number (the associativity law of the chain of products).
-/
import Idealize.ShloMosaic.Lib.ValueIdx
import proofs.«105965_j26173530701943_2_alg».proof.Proof.ChainLaw

noncomputable section

namespace Cert.ChainSpec

open Idealize.ShloMosaic Idealize.ShloMosaic.ValueIdx

abbrev SX : Shape := ⟨3, ![4, 4096, 1024]⟩
abbrev SM : Shape := ⟨2, ![1024, 1024]⟩

/-- Every entry of an array of extended reals is a real number. -/
def AllReal {S : Shape} (v : S.Idx → EReal) : Prop := ∀ i, ∃ r : ℝ, v i = (r : EReal)

/-- `(((x[b] · Bᵀ) · A) · Cᵀ) (s, o)`. -/
def chained (x : SX.Idx → EReal) (A B C : SM.Idx → EReal) (b : Fin 4) (s : Fin 4096) (o : Fin 1024) : EReal :=
  ∑ k : Fin 1024, (∑ j : Fin 1024, (∑ i : Fin 1024, x (ix3 b s i) * B (ix2 j i)) * A (ix2 j k)) * C (ix2 o k)

/-- `(Bᵀ · A · Cᵀ) (i, o)`: the sum over `k` of `(Σ_j B (j, i) · A (j, k)) · C (o, k)`. -/
def weight (A B C : SM.Idx → EReal) (i o : Fin 1024) : EReal :=
  ∑ k : Fin 1024, (∑ j : Fin 1024, B (ix2 j i) * A (ix2 j k)) * C (ix2 o k)

/-- `(x[b] · W) (s, o)` for the weight `W = Bᵀ · A · Cᵀ`. -/
def fused (x : SX.Idx → EReal) (A B C : SM.Idx → EReal) (b : Fin 4) (s : Fin 4096) (o : Fin 1024) : EReal :=
  ∑ i : Fin 1024, x (ix3 b s i) * weight A B C i o

/-- On real entries the fused product is the chained one. -/
theorem fused_eq_chained (x : SX.Idx → EReal) (A B C : SM.Idx → EReal)
    (hx : AllReal x) (hA : AllReal A) (hB : AllReal B) (hC : AllReal C) (b : Fin 4) (s : Fin 4096) (o : Fin 1024) :
    fused x A B C b s o = chained x A B C b s o :=
  Cert.ChainLaw.chain_ereal (fun i : Fin 1024 => x (ix3 b s i)) (fun j i : Fin 1024 => B (ix2 j i))
    (fun j k : Fin 1024 => A (ix2 j k)) (fun k : Fin 1024 => C (ix2 o k))
    (fun i => hx _) (fun j i => hB _) (fun j k => hA _) (fun k => hC _)

end Cert.ChainSpec

end
-- ==== Proof.KernelArrays.lean ====
/-
  Each launch's output array as one function of the arrays the launch finds.

  First launch (one grid point, every block the whole `1024 × 1024` array): from `B`, `A`, `C` as found it leaves
  the weight `Bᵀ · A · Cᵀ` in its output array.  Second launch (eight grid points; point `t` takes rows
  `2048·t … 2048·t + 2047` of the row matrix, the whole weight, and writes the same rows of the output): row `r` of
  the output is row `r` of the row matrix times the weight.  In both, what a point writes back is the restriction
  of that one whole-array function to the point's block, and the points' blocks cover the output, so the output
  array ends as that function.  Both statements hold for any contents the launch is entered with.
-/
import proofs.«105965_j26173530701943_2_alg».proof.Proof.Gen.KernelIdeal.Frame
import proofs.«105965_j26173530701943_2_alg».proof.Proof.KernelEntries
import proofs.«105965_j26173530701943_2_alg».proof.Proof.ChainSpec
import Idealize.ShloMosaic.Lib.Pipeline.Value

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Entries

variable (V : (c : Dev nD) → (b : Ref sig .tc) → Buf (Elt Ideal) ((c : Thread nD τ).loc b))

theorem zero_offsets : (![0, 0] : Fin 2 → Nat) = fun _ => 0 := funext fun a => by fin_cases a <;> rfl

/-! ## The payloads at an index of the block -/

/-- The first body's stored value at a block index, by its two coordinates. -/
theorem weight_payload_at (v0 v1 v2 : Vec Ideal S1024x1024 .f32) (y : S1024x1024.Idx) :
    k0_pay1 (F := Ideal) v0 v1 v2 y
      = ∑ k : Fin 1024, (∑ j : Fin 1024, v0 (ix2 j (⟨(y 0).val, (y 0).isLt⟩ : Fin 1024)) * v1 (ix2 j k))
          * v2 (ix2 (⟨(y 1).val, (y 1).isLt⟩ : Fin 1024) k) := by
  obtain ⟨i, o, rfl⟩ : ∃ (i o : Fin 1024), y = ix2 i o := ⟨y 0, y 1, eq_ix2 y⟩
  exact weight_payload v0 v1 v2 i o

/-- The second body's stored value at a block index, by its two coordinates. -/
theorem rows_payload_at (x0 : Vec Ideal S2048x1024 .f32) (x1 : Vec Ideal S1024x1024 .bf16) (y : S2048x1024.Idx) :
    k1_pay1 (F := Ideal) x0 x1 y
      = ∑ k : Fin 1024, x0 (ix2 (⟨(y 0).val, (y 0).isLt⟩ : Fin 2048) k) * x1 (ix2 k (⟨(y 1).val, (y 1).isLt⟩ : Fin 1024)) := by
  obtain ⟨p, q, rfl⟩ : ∃ (p : Fin 2048) (q : Fin 1024), y = ix2 p q := ⟨y 0, y 1, eq_ix2 y⟩
  exact rows_payload x0 x1 p q

/-! ## The first launch: the weight -/

/-- The weight `Bᵀ · A · Cᵀ` as an array. -/
def weightOf (Bm Am Cm : S1024x1024.Idx → Elt Ideal .f32) : S1024x1024.Idx → Elt Ideal .bf16 := fun y =>
  ∑ k : Fin 1024, (∑ j : Fin 1024, Bm (ix2 j (⟨(y 0).val, (y 0).isLt⟩ : Fin 1024)) * Am (ix2 j k))
    * Cm (ix2 (⟨(y 1).val, (y 1).isLt⟩ : Fin 1024) k)

/-- At its one point every window of the first launch is at block `(0, 0)`. -/
theorem origin0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- What the one point writes back is the weight of the arrays as found, read through the output's block. -/
theorem flushed0 (c : Dev nD) (t : Fin cfg0.N) :
    (dat0 V c).flushed 3 t
      = ((cfg0.win 3).blk t).view.read (Elt Ideal) (weightOf (V c main_arg2) (V c main_arg1) (V c main_arg3)) := by
  show (cfg0.win 3).cut (grid0.coords t) ((dat0 V c).after 3 t) = _
  rw [after0_3]
  unfold out0_3
  rw [View.canon_unit_zero zero_offsets]
  simp only [View.ld_unit_zero (S := S1024x1024) zero_offsets]
  obtain ⟨e00, e01, e10, e11, e20, e21, e30, e31⟩ := origin0 t
  funext y
  show k0_pay1 (iblk0 V c 0 t) (iblk0 V c 1 t) (iblk0 V c 2 t) ((cfg0.win 3).xinj (grid0.coords t) y)
    = weightOf (V c main_arg2) (V c main_arg1) (V c main_arg3) (((cfg0.win 3).blk t).view.emb y)
  refine (weight_payload_at _ _ _ _).trans ?_
  unfold weightOf
  have hy0 : (y 0).val < 1024 := (y 0).isLt
  have hy1 : (y 1).val < 1024 := (y 1).isLt
  refine Finset.sum_congr rfl fun k _ => congrArg₂ (· * ·) (Finset.sum_congr rfl fun j _ => congrArg₂ (· * ·) ?_ ?_) ?_
  · show V c main_arg2 (((cfg0.win 0).blk t).view.emb (ix2 j (⟨(y 0).val, hy0⟩ : Fin 1024))) = V c main_arg2 (ix2 j _)
    refine congrArg (V c main_arg2) (funext fun a => Fin.ext ?_)
    match a with
    | ⟨0, _⟩ => show win0_0.index t (0 : Fin 2) * 1024 + 1 * j.val = j.val; omega
    | ⟨1, _⟩ => show win0_0.index t (1 : Fin 2) * 1024 + 1 * (y 0).val = win0_3.index t (0 : Fin 2) * 1024 + 1 * (y 0).val; omega
  · show V c main_arg1 (((cfg0.win 1).blk t).view.emb (ix2 j k)) = V c main_arg1 (ix2 j k)
    refine congrArg (V c main_arg1) (funext fun a => Fin.ext ?_)
    match a with
    | ⟨0, _⟩ => show win0_1.index t (0 : Fin 2) * 1024 + 1 * j.val = j.val; omega
    | ⟨1, _⟩ => show win0_1.index t (1 : Fin 2) * 1024 + 1 * k.val = k.val; omega
  · show V c main_arg3 (((cfg0.win 2).blk t).view.emb (ix2 (⟨(y 1).val, hy1⟩ : Fin 1024) k)) = V c main_arg3 (ix2 _ k)
    refine congrArg (V c main_arg3) (funext fun a => Fin.ext ?_)
    match a with
    | ⟨0, _⟩ => show win0_2.index t (0 : Fin 2) * 1024 + 1 * (y 1).val = win0_3.index t (1 : Fin 2) * 1024 + 1 * (y 1).val; omega
    | ⟨1, _⟩ => show win0_2.index t (1 : Fin 2) * 1024 + 1 * k.val = k.val; omega

/-- An index of the weight array is in the point's block iff each coordinate is in the block's range. -/
theorem mem_blk0 (t : Fin cfg0.N) (i : S1024x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- The one block is the whole array. -/
theorem cover0 (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨e00, e01, e10, e11, e20, e21, e30, e31⟩ := origin0 t0_0
  refine ⟨t0_0, flush0_3 t0_0, ?_⟩
  rw [mem_blk0]
  intro a
  match a with
  | ⟨0, _⟩ => show win0_3.index t0_0 (0 : Fin 2) * 1024 ≤ (i 0).val ∧ (i 0).val < win0_3.index t0_0 (0 : Fin 2) * 1024 + 1024; omega
  | ⟨1, _⟩ => show win0_3.index t0_0 (1 : Fin 2) * 1024 ≤ (i 1).val ∧ (i 1).val < win0_3.index t0_0 (1 : Fin 2) * 1024 + 1024; omega

/-- The first launch leaves the weight of the arrays it finds in its output array. -/
theorem final0 (c : Dev nD) :
    (dat0 V c).arrAt 3 cfg0.N = weightOf (V c main_arg2) (V c main_arg1) (V c main_arg3) :=
  (dat0 V c).arrAt_eq_of_cover 3 _ (fun t _ => flushed0 V c t) cover0

/-! ## The second launch: rows times the weight -/

/-- Each row of the row matrix times the weight, as an array. -/
def rowsTimes (xf : S16384x1024.Idx → Elt Ideal .f32) (W : S1024x1024.Idx → Elt Ideal .bf16) :
    S16384x1024.Idx → Elt Ideal .f32 := fun y =>
  ∑ k : Fin 1024, xf (ix2 (⟨(y 0).val, (y 0).isLt⟩ : Fin 16384) k) * W (ix2 k (⟨(y 1).val, (y 1).isLt⟩ : Fin 1024))

/-- At point `t` the input rows and the output rows are block `t` on the first axis and block 0 on the second;
    the weight is at block `(0, 0)`. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is rows-times-weight of the arrays as found, read through the output's block. -/
theorem flushed1 (c : Dev nD) (t : Fin cfg1.N) :
    (dat1 V c).flushed 2 t
      = ((cfg1.win 2).blk t).view.read (Elt Ideal) (rowsTimes (V c main_v1) (V c main_v0)) := by
  show (cfg1.win 2).cut (grid1.coords t) ((dat1 V c).after 2 t) = _
  rw [after1_2]
  unfold out1_2
  rw [View.canon_unit_zero zero_offsets]
  simp only [View.ld_unit_zero (S := S2048x1024) zero_offsets, View.ld_unit_zero (S := S1024x1024) zero_offsets]
  obtain ⟨e00, e01, e10, e11, e20, e21⟩ := blocks1 t
  funext y
  show k1_pay1 (iblk1 V c 0 t) (iblk1 V c 1 t) ((cfg1.win 2).xinj (grid1.coords t) y)
    = rowsTimes (V c main_v1) (V c main_v0) (((cfg1.win 2).blk t).view.emb y)
  refine (rows_payload_at _ _ _).trans ?_
  unfold rowsTimes
  have hy0 : (y 0).val < 2048 := (y 0).isLt
  have hy1 : (y 1).val < 1024 := (y 1).isLt
  refine Finset.sum_congr rfl fun k _ => congrArg₂ (· * ·) ?_ ?_
  · show V c main_v1 (((cfg1.win 0).blk t).view.emb (ix2 (⟨(y 0).val, hy0⟩ : Fin 2048) k)) = V c main_v1 (ix2 _ k)
    refine congrArg (V c main_v1) (funext fun a => Fin.ext ?_)
    match a with
    | ⟨0, _⟩ => show win1_0.index t (0 : Fin 2) * 2048 + 1 * (y 0).val = win1_2.index t (0 : Fin 2) * 2048 + 1 * (y 0).val; omega
    | ⟨1, _⟩ => show win1_0.index t (1 : Fin 2) * 1024 + 1 * k.val = k.val; omega
  · show V c main_v0 (((cfg1.win 1).blk t).view.emb (ix2 k (⟨(y 1).val, hy1⟩ : Fin 1024))) = V c main_v0 (ix2 k _)
    refine congrArg (V c main_v0) (funext fun a => Fin.ext ?_)
    match a with
    | ⟨0, _⟩ => show win1_1.index t (0 : Fin 2) * 1024 + 1 * k.val = k.val; omega
    | ⟨1, _⟩ => show win1_1.index t (1 : Fin 2) * 1024 + 1 * (y 1).val = win1_2.index t (1 : Fin 2) * 1024 + 1 * (y 1).val; omega

/-- An index of the output is in point `t`'s block iff each coordinate is in the block's range. -/
theorem mem_blk1 (t : Fin cfg1.N) (i : S16384x1024.Idx) :
    i ∈ ((cfg1.win 2).blk t).view.set ↔ ∀ a : Fin 2, win1_2.index t a * S2048x1024.size a ≤ (i a).val
      ∧ (i a).val < win1_2.index t a * S2048x1024.size a + S2048x1024.size a := by
  show i ∈ ((View.whole main_v2).slice (win1_2.rect t)).set ↔ _
  rw [View.set_slice_whole, Rect.mem_set_unit]
  exact Iff.rfl

/-- Row `r` of the output is in the block of the point `r / 2048`. -/
theorem cover1 (i : S16384x1024.Idx) :
    ∃ t : Fin cfg1.N, (cfg1.win 2).flush t = true ∧ i ∈ ((cfg1.win 2).blk t).view.set := by
  have hi0 : (i 0).val < 16384 := (i 0).isLt
  have hi1 : (i 1).val < 1024 := (i 1).isLt
  have ht : (i 0).val / 2048 < cfg1.N := by rw [show cfg1.N = 8 from N_1]; omega
  obtain ⟨e00, e01, e10, e11, e20, e21⟩ := blocks1 ⟨(i 0).val / 2048, ht⟩
  refine ⟨⟨(i 0).val / 2048, ht⟩, flush1_2 _, ?_⟩
  rw [mem_blk1]
  intro a
  match a with
  | ⟨0, _⟩ =>
    show win1_2.index ⟨(i 0).val / 2048, ht⟩ (0 : Fin 2) * 2048 ≤ (i 0).val
      ∧ (i 0).val < win1_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win1_2.index ⟨(i 0).val / 2048, ht⟩ (1 : Fin 2) * 1024 ≤ (i 1).val
      ∧ (i 1).val < win1_2.index ⟨(i 0).val / 2048, ht⟩ (1 : Fin 2) * 1024 + 1024
    omega

/-- The second launch leaves rows-times-weight of the arrays it finds in its output array. -/
theorem final1 (c : Dev nD) :
    (dat1 V c).arrAt 2 cfg1.N = rowsTimes (V c main_v1) (V c main_v0) :=
  (dat1 V c).arrAt_eq_of_cover 2 _ (fun t _ => flushed1 V c t) cover1

end Cert.KernelIdeal.Arrays

end
-- ==== Proof.KernelResult.lean ====
/-
  The kernel program's result, entry by entry.

  The last boundary's contents at the result buffer, read back through the four segments:
  the final reshape of the second launch's output; that output is each row of the row matrix times the weight; the
  row matrix is the reshape of the input `x` (row `4096·b + s` is `x[b, s, :]`); the weight is what the first launch
  left, `Bᵀ · A · Cᵀ` of the arguments.  So the result at `(b, s, o)` is the fused product `(x[b] · W)(s, o)`, and on
  real entries that is the chained product `(((x[b] · Bᵀ) · A) · Cᵀ)(s, o)`.
-/
import proofs.«105965_j26173530701943_2_alg».proof.Proof.Gen.KernelIdeal.Frame
import proofs.«105965_j26173530701943_2_alg».proof.Proof.KernelArrays
import proofs.«105965_j26173530701943_2_alg».proof.Proof.ChainSpec
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem
open Idealize.ShloMosaic.StableHlo
open Cert.KernelIdeal Cert.KernelIdeal.Gen Cert.KernelIdeal.Arrays Cert.ChainSpec

variable (m : (ℓ : Loc nD τ sig) → Buf (Elt Ideal) ℓ) (ρ : Dev nD → PrngReg)

/-- The second launch finds, as its row matrix, the input `x` recast to `[16384, 1024]`. -/
theorem rows_entry (c : Dev nD) :
    V2 m ρ c main_v1
      = shapeCast S16384x1024 (m ((c : Thread nD τ).loc main_arg0)) Facts₀.shapeCasts_S4x4096x1024_S16384x1024 := by
  have e : W1 m ρ c (Proc.devRef .tc main_arg0) = m ((c : Thread nD τ).loc main_arg0) :=
    W1_of_ne m ρ c main_arg0 (by decide)
  show StableHlo.after hostOps1 (W1 m ρ c) (Proc.devRef .tc main_v1) = _
  after_results
  rw [e]
  rfl

/-- The second launch finds, as its weight, what the first launch left: `Bᵀ · A · Cᵀ` of the arguments. -/
theorem weight_entry (c : Dev nD) :
    V2 m ρ c main_v0
      = weightOf (m ((c : Thread nD τ).loc main_arg2)) (m ((c : Thread nD τ).loc main_arg1)) (m ((c : Thread nD τ).loc main_arg3)) :=
  calc V2 m ρ c main_v0
    _ = W1 m ρ c (Proc.devRef .tc main_v0) := StableHlo.after_of_forall_not_mem (b := Proc.devRef .tc main_v0) _ _ (List.forall_iff_forall_mem.mp (by
          simp only [hostOps1, List.Forall, StableHlo.reshape_writes, Finset.mem_singleton]
          exact StableHlo.devRef_ne_of_ne (by decide)))
    _ = (dat0 (V0 m ρ) c).arrAt 3 cfg0.N := W1_arr m ρ c 3
    _ = weightOf (V0 m ρ c main_arg2) (V0 m ρ c main_arg1) (V0 m ρ c main_arg3) := final0 (V0 m ρ) c

/-- The result buffer ends as the second launch's output recast to `[4, 4096, 1024]`. -/
theorem result_entry (c : Dev nD) :
    W4 m ρ c (Proc.devRef .tc main_v3)
      = shapeCast S4x4096x1024 (rowsTimes (V2 m ρ c main_v1) (V2 m ρ c main_v0)) Facts₀.shapeCasts_S16384x1024_S4x4096x1024 := by
  have e : W3 m ρ c (Proc.devRef .tc main_v2) = rowsTimes (V2 m ρ c main_v1) (V2 m ρ c main_v0) :=
    (W3_arr m ρ c 2).trans (final1 (V2 m ρ) c)
  show StableHlo.after hostOps2 (W3 m ρ c) (Proc.devRef .tc main_v3) = _
  after_results
  rw [e]
  rfl

/-- Row `4096·b + s` of the recast input is `x[b, s, :]`. -/
theorem recast_row (x : S4x4096x1024.Idx → Elt Ideal .f32) (b : Fin 4) (s : Fin 4096) (i : Fin 1024)
    (h : b.val * 4096 + s.val < 16384) :
    shapeCast S16384x1024 x Facts₀.shapeCasts_S4x4096x1024_S16384x1024 (ix2 (⟨b.val * 4096 + s.val, h⟩ : Fin 16384) i)
      = x (ix3 b s i) :=
  shapeCast_apply x _ _ (ix3 b s i) (by
    rw [Shape.rowMajor_val_two, Shape.rowMajor_val_three]
    show (b.val * 4096 + s.val) * 1024 + i.val = (b.val * 4096 + s.val) * 1024 + i.val
    rfl)

/-- The result at `(b, s, o)` is the fused product of the arguments. -/
theorem result_fused (c : Dev nD) (b : Fin 4) (s : Fin 4096) (o : Fin 1024) :
    W4 m ρ c (Proc.devRef .tc main_v3) (ix3 b s o)
      = fused (m ((c : Thread nD τ).loc main_arg0)) (m ((c : Thread nD τ).loc main_arg1))
          (m ((c : Thread nD τ).loc main_arg2)) (m ((c : Thread nD τ).loc main_arg3)) b s o := by
  have hr : b.val * 4096 + s.val < 16384 := by have := b.isLt; have := s.isLt; omega
  have e1 : W4 m ρ c (Proc.devRef .tc main_v3) (ix3 b s o)
      = rowsTimes (V2 m ρ c main_v1) (V2 m ρ c main_v0) (ix2 (⟨b.val * 4096 + s.val, hr⟩ : Fin 16384) o) :=
    (congrFun (result_entry m ρ c) (ix3 b s o)).trans
      (shapeCast_apply _ _ (ix3 b s o) (ix2 (⟨b.val * 4096 + s.val, hr⟩ : Fin 16384) o) (by
        rw [Shape.rowMajor_val_two, Shape.rowMajor_val_three]
        show (b.val * 4096 + s.val) * 1024 + o.val = (b.val * 4096 + s.val) * 1024 + o.val
        rfl))
  have e2 : rowsTimes (V2 m ρ c main_v1) (V2 m ρ c main_v0) (ix2 (⟨b.val * 4096 + s.val, hr⟩ : Fin 16384) o)
      = fused (m ((c : Thread nD τ).loc main_arg0)) (m ((c : Thread nD τ).loc main_arg1))
          (m ((c : Thread nD τ).loc main_arg2)) (m ((c : Thread nD τ).loc main_arg3)) b s o := by
    unfold rowsTimes fused
    refine Finset.sum_congr rfl fun i _ => congrArg₂ (· * ·) ?_ ?_
    · show V2 m ρ c main_v1 (ix2 (⟨b.val * 4096 + s.val, hr⟩ : Fin 16384) i) = _
      rw [rows_entry]
      exact recast_row _ b s i hr
    · show V2 m ρ c main_v0 (ix2 i o) = _
      rw [weight_entry]
      rfl
  exact e1.trans e2

/-- On real entries the result at `(b, s, o)` is the chained product. -/
theorem result_chained (c : Dev nD)
    (hx : AllReal (m ((c : Thread nD τ).loc main_arg0))) (hA : AllReal (m ((c : Thread nD τ).loc main_arg1)))
    (hB : AllReal (m ((c : Thread nD τ).loc main_arg2))) (hC : AllReal (m ((c : Thread nD τ).loc main_arg3)))
    (b : Fin 4) (s : Fin 4096) (o : Fin 1024) :
    W4 m ρ c (Proc.devRef .tc main_v3) (ix3 b s o)
      = chained (m ((c : Thread nD τ).loc main_arg0)) (m ((c : Thread nD τ).loc main_arg1))
          (m ((c : Thread nD τ).loc main_arg2)) (m ((c : Thread nD τ).loc main_arg3)) b s o :=
  (result_fused m ρ c b s o).trans (fused_eq_chained _ _ _ _ hx hA hB hC b s o)

end Cert.KernelIdeal.Result

end
-- ==== Proof.ReferenceChained.lean ====
/-
  The reference program's result is the chained product.

  The reference takes the three products in turn: `x · Bᵀ` (contracting the last axis of `x` with the columns of
  `B`), then `· A` (with the rows of `A`), then `· Cᵀ` (with the columns of `C`).  Each is a sum over its contracted
  axis; composed, the result at `(b, s, o)` is the nested triple sum named `chained`.  No hypothesis on the entries is
  needed: this is only the reading of the three sums at an index.
-/
import proofs.«105965_j26173530701943_2_alg».proof.Proof.Gen.ReferenceIdeal.Read
import proofs.«105965_j26173530701943_2_alg».proof.Proof.ChainSpec

noncomputable section

namespace Cert.ReferenceIdeal.Chained

open Idealize.ShloMosaic Idealize.ShloMosaic.ValueIdx Cert.ReferenceIdeal Cert.ReferenceIdeal.Read

/-- The reference's composed term at `(b, s, o)`. -/
theorem result_apply (x0 : (⟨S4x4096x1024, .f32⟩ : BufTy).Contents (Elt Ideal))
    (x1 x2 x3 : (⟨S1024x1024, .f32⟩ : BufTy).Contents (Elt Ideal)) (b : Fin 4) (s : Fin 4096) (o : Fin 1024) :
    val_main_v2 (F := Ideal) x0 x1 x2 x3 (ix3 b s o) = Cert.ChainSpec.chained x0 x1 x2 x3 b s o := by
  have l2 : ∀ k : Fin 1024, lidx_main_v2 (ix3 b s o) k = ix3 b s k := fun k =>
    funext fun a => Fin.ext (by match a with | ⟨0, _⟩ => rfl | ⟨1, _⟩ => rfl | ⟨2, _⟩ => rfl)
  have r2 : ∀ k : Fin 1024, ridx_main_v2 (ix3 b s o) k = ix2 o k := fun k =>
    funext fun a => Fin.ext (by match a with | ⟨0, _⟩ => rfl | ⟨1, _⟩ => rfl)
  have l1 : ∀ k j : Fin 1024, lidx_main_v1 (ix3 b s k) j = ix3 b s j := fun k j =>
    funext fun a => Fin.ext (by match a with | ⟨0, _⟩ => rfl | ⟨1, _⟩ => rfl | ⟨2, _⟩ => rfl)
  have r1 : ∀ k j : Fin 1024, ridx_main_v1 (ix3 b s k) j = ix2 j k := fun k j =>
    funext fun a => Fin.ext (by match a with | ⟨0, _⟩ => rfl | ⟨1, _⟩ => rfl)
  have l0 : ∀ j i : Fin 1024, lidx_main_v0 (ix3 b s j) i = ix3 b s i := fun j i =>
    funext fun a => Fin.ext (by match a with | ⟨0, _⟩ => rfl | ⟨1, _⟩ => rfl | ⟨2, _⟩ => rfl)
  have r0 : ∀ j i : Fin 1024, ridx_main_v0 (ix3 b s j) i = ix2 j i := fun j i =>
    funext fun a => Fin.ext (by match a with | ⟨0, _⟩ => rfl | ⟨1, _⟩ => rfl)
  rw [val_main_v2_apply]
  unfold Cert.ChainSpec.chained
  refine Finset.sum_congr rfl fun k _ => ?_
  rw [l2 k, r2 k, val_main_v1_apply]
  refine congrArg (· * x3 (ix2 o k)) (Finset.sum_congr rfl fun j _ => ?_)
  rw [l1 k j, r1 k j, val_main_v0_apply]
  refine congrArg (· * x1 (ix2 j k)) (Finset.sum_congr rfl fun i _ => ?_)
  rw [l0 j i, r0 j i]

end Cert.ReferenceIdeal.Chained

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.InputsReal.lean ====
/-
  The precondition says that every input entry is a real number.

  The precondition is the conjunction, over the four input arrays, of "every entry has absolute value below
  +∞".  Each conjunct is an "and"-reduction of the comparison bits over the whole array; the four results are
  joined by "and".  If the whole is 1 then each conjunct is 1, so every comparison bit is 1, so every entry is a
  real number (neither infinity has absolute value below +∞).
-/
import proofs.«105965_j26173530701943_2_alg».proof.Pre_finite_inputs
import proofs.«105965_j26173530701943_2_alg».proof.Proof.LibFiniteAll
import proofs.«105965_j26173530701943_2_alg».proof.Proof.ChainSpec
import Idealize.ShloMosaic.Lib.Affine

noncomputable section

namespace Cert.Pre_finite_inputs.Reals

open Idealize.ShloMosaic Cert.Pre_finite_inputs Cert.FiniteAll Cert.ChainSpec

variable [Cert.Pre_finite_inputs.Facts]

/-- If the predicate evaluates to 1 then all four arrays have only real entries. -/
theorem all_real_of_fn (a0 : FVec Ideal S4x4096x1024 .f32) (a1 a2 a3 : FVec Ideal S1024x1024 .f32)
    (h : Cert.Pre_finite_inputs.fn (F := Ideal) a0 a1 a2 a3 = fun _ => 1#1) :
    AllReal a0 ∧ AllReal a1 ∧ AllReal a2 ∧ AllReal a3 := by
  have h0 := congrFun h ValueIdx.ix0
  unfold Cert.Pre_finite_inputs.fn Cert.Pre_finite_inputs.fn_part1 at h0
  dsimp only at h0
  obtain ⟨h012, h3⟩ := IntOp.andi_eq_one.mp h0
  obtain ⟨h01, h2⟩ := IntOp.andi_eq_one.mp h012
  obtain ⟨h0', h1⟩ := IntOp.andi_eq_one.mp h01
  exact ⟨all_real a0 _ _ _ _ h0', all_real a1 _ _ _ _ h1, all_real a2 _ _ _ _ h2, all_real a3 _ _ _ _ h3⟩

end Cert.Pre_finite_inputs.Reals

end
-- ==== Proof.lean ====
/-
  The kernel computes `y = x · W` with the one weight `W = Bᵀ · A · Cᵀ` (a first launch builds `W`, a second multiplies
  blocks of rows of `x` by it); the reference computes `y = ((x · Bᵀ) · A) · Cᵀ`, one product after another.  Read over the
  extended reals, where a change of float format is the identity and a matrix product is the plain sum of products,
  both results at `(b, s, o)` are groupings of the triple sum of `x[b,s,i] · B[j,i] · A[j,k] · C[o,k]`.

  The two groupings are equal by distributing products over sums and exchanging the order of summation.  That law
  fails at infinities, so the hypothesis that every input entry is finite is used: under it every entry is a real
  number and the identity is the real one (module ChainLaw).  The kernel's side is read off its run: the result buffer
  at the last segment boundary (KernelRun), walked back through the two launches and the two reshapes to the fused
  product of the arguments (KernelArrays, KernelResult).  The reference's side is its three sums read at an index
  (ReferenceChained).  No operation of the kernel was rewritten by the idealization, so that conjunct is trivial; the
  three frames are the programs' runs with the result dropped.
-/
import proofs.«105965_j26173530701943_2_alg».proof.Defs
import proofs.«105965_j26173530701943_2_alg».proof.Proof.Gen.Kernel
import proofs.«105965_j26173530701943_2_alg».proof.Proof.Gen.Kernel.Skeleton
import proofs.«105965_j26173530701943_2_alg».proof.Proof.Gen.Kernel.Launch
import proofs.«105965_j26173530701943_2_alg».proof.Proof.Gen.Kernel.Points
import proofs.«105965_j26173530701943_2_alg».proof.Proof.Gen.Kernel.Frame
import proofs.«105965_j26173530701943_2_alg».proof.Proof.Gen.KernelIdeal
import proofs.«105965_j26173530701943_2_alg».proof.Proof.Gen.KernelIdeal.Skeleton
import proofs.«105965_j26173530701943_2_alg».proof.Proof.Gen.KernelIdeal.Launch
import proofs.«105965_j26173530701943_2_alg».proof.Proof.Gen.KernelIdeal.Points
import proofs.«105965_j26173530701943_2_alg».proof.Proof.Gen.KernelIdeal.Frame
import proofs.«105965_j26173530701943_2_alg».proof.Proof.Gen.ReferenceIdeal
import proofs.«105965_j26173530701943_2_alg».proof.Proof.Gen.ReferenceIdeal.Run
import proofs.«105965_j26173530701943_2_alg».proof.Proof.Gen.ReferenceIdeal.Read
import proofs.«105965_j26173530701943_2_alg».proof.Proof.Gen.Pre_finite_inputs
import proofs.«105965_j26173530701943_2_alg».proof.Proof.KernelRun
import proofs.«105965_j26173530701943_2_alg».proof.Proof.KernelResult
import proofs.«105965_j26173530701943_2_alg».proof.Proof.ReferenceChained
import proofs.«105965_j26173530701943_2_alg».proof.Proof.InputsReal
import Idealize.ShloMosaic.Adequacy
import Idealize.ShloMosaic.Init

noncomputable section

namespace Cert.Proof

open Idealize.ShloMosaic Idealize.ShloMosaic.ValueIdx Idealize.SL.Sem

/-- The word-level kernel program runs and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments both programs end with the chained product
    `((x · Bᵀ) · A) · Cᵀ` of the arguments in their result buffers. -/
theorem algebraic : Cert.algebraic_KernelIdeal_ReferenceIdeal := by
  intro m ρ m' ρ' hpre hagree
  refine ⟨fun c => Cert.ReferenceIdeal.Read.val_main_v2 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Whole.run_result (F := Ideal) m ρ)
    obtain ⟨hx, hA, hB, hC⟩ := Cert.Pre_finite_inputs.Reals.all_real_of_fn _ _ _ _ (hpre c)
    funext i
    obtain ⟨b, s, o, rfl⟩ : ∃ (b : Fin 4) (s : Fin 4096) (o : Fin 1024), i = ix3 b s o := ⟨i 0, i 1, i 2, eq_ix3 i⟩
    exact (Cert.KernelIdeal.Result.result_chained m ρ c hx hA hB hC b s o).trans
      (Cert.ReferenceIdeal.Chained.result_apply _ _ _ _ b s o).symm
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    rfl

theorem claim : Cert.Claim := ⟨Cert.Kernel.Gen.facts, Cert.KernelIdeal.Gen.facts, Cert.ReferenceIdeal.Gen.facts,
  Cert.Pre_finite_inputs.Gen.facts, frame_kernel, frame_kernel_ideal, frame_reference, preserves, algebraic⟩

end Cert.Proof

end
